-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x91x3 : Shape := ⟨3, ![64, 91, 3]⟩
abbrev S64x3 : Shape := ⟨2, ![64, 3]⟩
abbrev S_ : Shape := ⟨0, ![]⟩

class Facts : Prop where
  bcast_S_S64x91x3 : S_.BroadcastsInDim S64x91x3 (![] : Fin 0 → Fin S64x91x3.rank)
  reducesTo_S64x91x3_S_d0_1_2 : S64x91x3.ReducesTo [0, 1, 2] S_
  h_S_ : 0 < S_.numel
  bcast_S_S64x3 : S_.BroadcastsInDim S64x3 (![] : Fin 0 → Fin S64x3.rank)
  reducesTo_S64x3_S_d0_1 : S64x3.ReducesTo [0, 1] S_

variable [Facts]

def fn {F : FTy → Type} [FloatOps F] (main_arg0 : FVec F S64x91x3 .f32) (main_arg1 : FVec F S64x3 .f32) (main_arg2 : FVec F S64x3 .f32) : IVec S_ 1 :=
  let main_v0 : FVec F S64x91x3 .f32 := Host.absf main_arg0
  let main_cst : FVec F S_ .f32 := constant S_ .f32 0x7F800000#32
  let main_v1 : FVec F S64x91x3 .f32 := broadcastInDim S64x91x3 ![] bcast_S_S64x91x3 main_cst
  let main_v2 : IVec S64x91x3 1 := cmpf .olt main_v0 main_v1
  let main_c : IVec S_ 1 := constantI S_ 1 1#1
  let main_v3 : IVec S_ 1 := (fun x v => Host.reduce IntOp.andi x v reducesTo_S64x91x3_S_d0_1_2 h_S_) main_v2 main_c
  let main_v4 : FVec F S64x3 .f32 := Host.absf main_arg1
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64x3 .f32 := Host.absf main_arg2
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  main_v13
-- ==== Kernel.lean ====
abbrev S64x91x3 : Shape := ⟨3, ![64, 91, 3]⟩
abbrev S64x3 : Shape := ⟨2, ![64, 3]⟩
abbrev S64x3x91 : Shape := ⟨3, ![64, 3, 91]⟩
abbrev S64x1x91 : Shape := ⟨3, ![64, 1, 91]⟩
abbrev S64x91 : Shape := ⟨2, ![64, 91]⟩
abbrev S64x1 : Shape := ⟨2, ![64, 1]⟩
abbrev S64 : Shape := ⟨1, ![64]⟩

abbrev nBuf : Space → Nat
  | .hbm => 6
  | .vmem => 4
  | .smem => 0
  | _ => 0

abbrev bufTy : (tb : Table) → Fin (tcTables nBuf tb) → BufTy
  | .hbm, ⟨0, _⟩ => ⟨S64x91x3, .f32⟩
  | .hbm, ⟨1, _⟩ => ⟨S64x3, .f32⟩
  | .hbm, ⟨2, _⟩ => ⟨S64x3, .f32⟩
  | .hbm, ⟨3, _⟩ => ⟨S64x3x91, .f32⟩
  | .hbm, ⟨4, _⟩ => ⟨S64x3x91, .f32⟩
  | .hbm, ⟨5, _⟩ => ⟨S64x91x3, .f32⟩
  | .local _ .vmem, ⟨0, _⟩ => ⟨S64x3x91, .f32⟩
  | .local _ .vmem, ⟨1, _⟩ => ⟨S64x3, .f32⟩
  | .local _ .vmem, ⟨2, _⟩ => ⟨S64x3, .f32⟩
  | .local _ .vmem, ⟨3, _⟩ => ⟨S64x3x91, .f32⟩
  | _, _ => ⟨S64x91x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S64x3x91 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x3x91 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S64x91x3_S64x3x91_0_2_1 : S64x91x3.Transposes [0, 2, 1] S64x3x91
  inb_S64x3x91_S64x3x91_0_0_0 : ∀ a, (![0, 0, 0] : Fin 3 → Nat) a + S64x3x91.size a ≤ S64x3x91.size a
  h_S64x3x91 : 0 < S64x3x91.numel
  shapeCasts_S64x3x91_S64x3x91 : S64x3x91.ShapeCasts S64x3x91
  slices_S64x3x91_o0_0_0_S64x1x91 : S64x3x91.Slices ![0, 0, 0] S64x1x91
  shapeCasts_S64x1x91_S64x91 : S64x1x91.ShapeCasts S64x91
  slices_S64x3x91_o0_1_0_S64x1x91 : S64x3x91.Slices ![0, 1, 0] S64x1x91
  slices_S64x3x91_o0_2_0_S64x1x91 : S64x3x91.Slices ![0, 2, 0] S64x1x91
  inb_S64x3_S64x3_0_0 : ∀ a, (![0, 0] : Fin 2 → Nat) a + S64x3.size a ≤ S64x3.size a
  h_S64x3 : 0 < S64x3.numel
  slices_S64x3_o0_0_S64x1 : S64x3.Slices ![0, 0] S64x1
  shapeCasts_S64x1_S64 : S64x1.ShapeCasts S64
  slices_S64x3_o0_1_S64x1 : S64x3.Slices ![0, 1] S64x1
  slices_S64x3_o0_2_S64x1 : S64x3.Slices ![0, 2] S64x1
  shapeCasts_S64_S64x1 : S64.ShapeCasts S64x1
  broadcasts_S64x1_S64x91 : S64x1.Broadcasts S64x91
  inb_S64x3x91_S64x1x91_0_0_0 : ∀ a, (![0, 0, 0] : Fin 3 → Nat) a + S64x1x91.size a ≤ S64x3x91.size a
  h_S64x1x91 : 0 < S64x1x91.numel
  shapeCasts_S64x91_S64x1x91 : S64x91.ShapeCasts S64x1x91
  inb_S64x3x91_S64x1x91_0_1_0 : ∀ a, (![0, 1, 0] : Fin 3 → Nat) a + S64x1x91.size a ≤ S64x3x91.size a
  inb_S64x3x91_S64x1x91_0_2_0 : ∀ a, (![0, 2, 0] : Fin 3 → Nat) a + S64x1x91.size a ≤ S64x3x91.size a
  transposes_S64x3x91_S64x91x3_0_2_1 : S64x3x91.Transposes [0, 2, 1] S64x91x3
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x3x91.size a ≤ S64x3x91.size a
  hwx0_0 : ∀ i : grid0.Coords, EltTy.bits .f32 = 32 ∨ (Rect.block (s := S64x3x91) S64x3x91.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x3.size a ≤ S64x3.size a
  hwx0_1 : ∀ i : grid0.Coords, EltTy.bits .f32 = 32 ∨ (Rect.block (s := S64x3) S64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x3.size a ≤ S64x3.size a
  hwx0_2 : ∀ i : grid0.Coords, EltTy.bits .f32 = 32 ∨ (Rect.block (s := S64x3) S64x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x3x91.size a ≤ S64x3x91.size a
  hwx0_3 : ∀ i : grid0.Coords, EltTy.bits .f32 = 32 ∨ (Rect.block (s := S64x3x91) S64x3x91.size (cc0_transform_3 i) (hinb0_3 i)).WholeWords (EltTy.packing .f32)

variable [Facts₀]

abbrev win0_0 : Pipeline.Window sig grid0 :=
  Pipeline.Window.ofSpec (Memref.whole main_v0) S64x3x91.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x3x91.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x91x3 : Shape := ⟨3, ![64, 91, 3]⟩
abbrev S64x3 : Shape := ⟨2, ![64, 3]⟩
abbrev S_ : Shape := ⟨0, ![]⟩
abbrev S64x1 : Shape := ⟨2, ![64, 1]⟩
abbrev S64x4 : Shape := ⟨2, ![64, 4]⟩
abbrev S64 : Shape := ⟨1, ![64]⟩
abbrev S64x9 : Shape := ⟨2, ![64, 9]⟩
abbrev S64x3x3 : Shape := ⟨3, ![64, 3, 3]⟩
abbrev S64x1x3 : Shape := ⟨3, ![64, 1, 3]⟩

abbrev nBuf : Space → Nat
  | .hbm => 111
  | .vmem => 0
  | .smem => 0
  | _ => 0

abbrev bufTy : (tb : Table) → Fin (tcTables nBuf tb) → BufTy
  | .hbm, ⟨0, _⟩ => ⟨S64x91x3, .f32⟩
  | .hbm, ⟨1, _⟩ => ⟨S64x3, .f32⟩
  | .hbm, ⟨2, _⟩ => ⟨S64x3, .f32⟩
  | .hbm, ⟨3, _⟩ => ⟨S_, .f32⟩
  | .hbm, ⟨4, _⟩ => ⟨S64x1, .f32⟩
  | .hbm, ⟨5, _⟩ => ⟨S64x4, .f32⟩
  | .hbm, ⟨6, _⟩ => ⟨S64x4, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S64x1, .f32⟩
  | .hbm, ⟨11, _⟩ => ⟨S64x4, .f32⟩
  | .hbm, ⟨12, _⟩ => ⟨S64x4, .f32⟩
  | .hbm, ⟨13, _⟩ => ⟨S64x1, .f32⟩
  | .hbm, ⟨14, _⟩ => ⟨S64, .f32⟩
  | .hbm, ⟨15, _⟩ => ⟨S64x1, .f32⟩
  | .hbm, ⟨16, _⟩ => ⟨S64, .f32⟩
  | .hbm, ⟨17, _⟩ => ⟨S64x1, .f32⟩
  | .hbm, ⟨18, _⟩ => ⟨S64, .f32⟩
  | .hbm, ⟨19, _⟩ => ⟨S64x1, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S64, .f32⟩
  | .hbm, ⟨88, _⟩ => ⟨S64, .f32⟩
  | .hbm, ⟨89, _⟩ => ⟨S64, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S64x1, .f32⟩
  | .hbm, ⟨97, _⟩ => ⟨S64x1, .f32⟩
  | .hbm, ⟨98, _⟩ => ⟨S64x1, .f32⟩
  | .hbm, ⟨99, _⟩ => ⟨S64x1, .f32⟩
  | .hbm, ⟨100, _⟩ => ⟨S64x1, .f32⟩
  | .hbm, ⟨101, _⟩ => ⟨S64x1, .f32⟩
  | .hbm, ⟨102, _⟩ => ⟨S64x1, .f32⟩
  | .hbm, ⟨103, _⟩ => ⟨S64x1, .f32⟩
  | .hbm, ⟨104, _⟩ => ⟨S64x1, .f32⟩
  | .hbm, ⟨105, _⟩ => ⟨S64x9, .f32⟩
  | .hbm, ⟨106, _⟩ => ⟨S64x3x3, .f32⟩
  | .hbm, ⟨107, _⟩ => ⟨S64x91x3, .f32⟩
  | .hbm, ⟨108, _⟩ => ⟨S64x1x3, .f32⟩
  | .hbm, ⟨109, _⟩ => ⟨S64x91x3, .f32⟩
  | .hbm, ⟨110, _⟩ => ⟨S64x91x3, .f32⟩
  | _, _ => ⟨S64x91x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_11 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩

abbrev nD : Nat := 1
abbrev τ : Topo := Topo.v7x

variable {F : FTy → Type} [FloatOps F]

class Facts₀ : Prop where
  bcast_S_S64x1 : S_.BroadcastsInDim S64x1 (![] : Fin 0 → Fin S64x1.rank)
  concatenates_S64x1_S64x3_S64x4_d1 : Shape.Concatenates [S64x1, S64x3] S64x4 1
  reducesTo_S64x4_S64_d1 : S64x4.ReducesTo [1] S64
  h_S_ : 0 < S_.numel
  bcast_S64_S64x1_0 : S64.BroadcastsInDim S64x1 (![0] : Fin 1 → Fin S64x1.rank)
  bcast_S64x1_S64x4_0_1 : S64x1.BroadcastsInDim S64x4 (![0, 1] : Fin 2 → Fin S64x4.rank)
  slices_S64x4_S64x1_0_0 : S64x4.Slices ![0, 0] S64x1
  shapeCasts_S64x1_S64 : S64x1.ShapeCasts S64
  slices_S64x4_S64x1_0_1 : S64x4.Slices ![0, 1] S64x1
  slices_S64x4_S64x1_0_2 : S64x4.Slices ![0, 2] S64x1
  slices_S64x4_S64x1_0_3 : S64x4.Slices ![0, 3] S64x1
  bcast_S_S64 : S_.BroadcastsInDim S64 (![] : Fin 0 → Fin S64.rank)
  concatenates_S64x1_S64x1_S64x1_S64x1_S64x1_S64x1_S64x1_S64x1_S64x1_S64x9_d1 : Shape.Concatenates [S64x1, S64x1, S64x1, S64x1, S64x1, S64x1, S64x1, S64x1, S64x1] S64x9 1
  shapeCasts_S64x9_S64x3x3 : S64x9.ShapeCasts S64x3x3
  bcast_S64x3_S64x1x3_0_2 : S64x3.BroadcastsInDim S64x1x3 (![0, 2] : Fin 2 → Fin S64x1x3.rank)
  bcast_S64x1x3_S64x91x3_0_1_2 : S64x1x3.BroadcastsInDim S64x91x3 (![0, 1, 2] : Fin 3 → Fin S64x91x3.rank)
  dot_S64x91x3_S64x3x3_S64x91x3_2_1_1_2_0_0_wf : DotDims.WF S64x91x3 S64x3x3 S64x91x3 [2] [1] [1] [2] [0] [0]

variable [Facts₀]

def dot_S64x91x3_S64x3x3_S64x91x3_2_1_1_2_0_0 : DotDims S64x91x3 S64x3x3 S64x91x3 where
  lhsContracting := [2]
  rhsContracting := [1]
  lhsNonContracting := [1]
  rhsNonContracting := [2]
  lhsBatch := [0]
  rhsBatch := [0]
  wf := dot_S64x91x3_S64x3x3_S64x91x3_2_1_1_2_0_0_wf

class Facts : Prop extends Facts₀ where

variable [Facts]
-- ==== Proof.Quaternion.lean ====
/-
  The unit quaternion of a rotation vector and the rigid motion it gives, on the extended reals.

  A rotation vector (b, c, d) stands for the quaternion (1, b, c, d) scaled to unit length; its rotation matrix is
  the usual one of a unit quaternion (a, b, c, d). A point p = (p₀, p₁, p₂) is moved to p · R + t.

  The scaling can be written two ways: each component DIVIDED by the length, or each component MULTIPLIED by the
  reciprocal 1 / length. The length is the square root of 1 + b² + c² + d², a sum of 1 and three squares; a square is
  never negative on the extended reals (∞ · ∞ = (−∞) · (−∞) = ∞), so the sum is at least 1 and the length is not zero.
  Off zero, division IS multiplication by the inverse, so the two scalings agree for every extended real, infinite
  ones included: nothing here needs the entries to be finite.
-/
import Idealize.ShloMosaic.PureOps.Ideal
import Idealize.ShloMosaic.PureOps.Ideal.Laws

noncomputable section

namespace Cert.Quaternion

open Idealize.ShloMosaic

/-- The single-precision words of 1, 2 and 0 as extended reals. -/
local notation "w1" => Ideal.ofBits FTy.f32 0x3F800000#32
local notation "w2" => Ideal.ofBits FTy.f32 0x40000000#32
local notation "w0" => Ideal.ofBits FTy.f32 0x00000000#32

/-- The word 3F800000 is the number 1. -/
theorem word_one : w1 = (1 : EReal) := by
  simp [Ideal.ofBits, Ideal.ieee, -EReal.coe_mul]; norm_num

/-- The squared length of the quaternion (1, b, c, d), added up from the left. -/
def sqLen (b c d : EReal) : EReal := w1 + b * b + c * c + d * d

/-- Its length. -/
def len (b c d : EReal) : EReal := Ideal.sqrt (sqLen b c d)

/-- The scalar part of the unit quaternion: the reciprocal of the length. -/
def scal (b c d : EReal) : EReal := Ideal.div w1 (len b c d)

/-- The rotation matrix of a unit quaternion (a, b, c, d): row m, column n. -/
def rot (a b c d : EReal) : Fin 3 → Fin 3 → EReal :=
  ![![a * a + b * b - c * c - d * d, w2 * b * c - w2 * a * d, w2 * b * d + w2 * a * c],
    ![w2 * b * c + w2 * a * d, a * a - b * b + c * c - d * d, w2 * c * d - w2 * a * b],
    ![w2 * b * d - w2 * a * c, w2 * c * d + w2 * a * b, a * a - b * b - c * c + d * d]]

/-- The rotation matrix of the rotation vector (b, c, d): of (1, b, c, d) scaled to unit length, the vector part
    scaled by multiplying with the reciprocal of the length. -/
def rotOf (b c d : EReal) : Fin 3 → Fin 3 → EReal :=
  rot (scal b c d) (b * scal b c d) (c * scal b c d) (d * scal b c d)

/-- Coordinate n of the point (p₀, p₁, p₂) rotated by the rotation vector (b, c, d) and moved by t. -/
def moved (p0 p1 p2 b c d t : EReal) (n : Fin 3) : EReal :=
  p0 * rotOf b c d 0 n + p1 * rotOf b c d 1 n + p2 * rotOf b c d 2 n + t

/-! ## The length is not zero -/

/-- A square is never negative, at the infinities too. -/
theorem mul_self_nonneg (x : EReal) : 0 ≤ x * x := by
  induction x using EReal.rec with
  | bot => rw [EReal.bot_mul_bot]; exact le_top
  | coe r => rw [← EReal.coe_mul]; exact EReal.coe_nonneg.mpr (_root_.mul_self_nonneg r)
  | top => rw [EReal.top_mul_top]; exact le_top

/-- So the squared length is at least 1. -/
theorem one_le_sqLen (b c d : EReal) : 1 ≤ sqLen b c d := by
  unfold sqLen
  rw [word_one]
  have hb := mul_self_nonneg b
  have hc := mul_self_nonneg c
  have hd := mul_self_nonneg d
  calc (1 : EReal) ≤ 1 + b * b := le_add_of_nonneg_right hb
    _ ≤ 1 + b * b + c * c := le_add_of_nonneg_right hc
    _ ≤ 1 + b * b + c * c + d * d := le_add_of_nonneg_right hd

/-- The square root of anything at least 1 is not zero. -/
theorem sqrt_ne_zero {x : EReal} (h : 1 ≤ x) : Ideal.sqrt x ≠ 0 := by
  induction x using EReal.rec with
  | bot =>
    have hlt : (⊥ : EReal) < 1 := by exact_mod_cast EReal.bot_lt_coe 1
    exact absurd (lt_of_lt_of_le hlt h) (lt_irrefl _)
  | coe r =>
    have hr : (1 : ℝ) ≤ r := by exact_mod_cast h
    rw [Ideal.sqrt_coe, if_neg (by linarith)]
    have : Real.sqrt r ≠ 0 := Real.sqrt_ne_zero'.mpr (by linarith)
    exact_mod_cast this
  | top => rw [Ideal.sqrt_top]; exact EReal.top_ne_zero

theorem len_ne_zero (b c d : EReal) : len b c d ≠ 0 := sqrt_ne_zero (one_le_sqLen b c d)

/-! ## Dividing by the length is multiplying by its reciprocal -/

/-- The reciprocal of the length is its inverse. -/
theorem scal_eq (b c d : EReal) : scal b c d = (len b c d)⁻¹ := by
  unfold scal Ideal.div
  rw [if_neg (len_ne_zero b c d), word_one, one_mul]

/-- A component divided by the length is the component times the reciprocal of the length. -/
theorem div_len (x b c d : EReal) : Ideal.div x (len b c d) = x * scal b c d := by
  rw [scal_eq]
  unfold Ideal.div
  rw [if_neg (len_ne_zero b c d)]

/-- The squared length added up from zero over the four components, the first being the word 1 squared. -/
theorem sqLen_from_zero (b c d : EReal) : w0 + (w1 * w1 + b * b + c * c + d * d) = sqLen b c d := by
  unfold sqLen
  rw [Ideal.ofBits_zero_f32, zero_add, word_one, one_mul]

end Cert.Quaternion

end
-- ==== Proof.LibSlabs.lean ====
/-
  An a×b×c array handled slab by slab along its middle axis, read at an index.

  Slab n is the a×1×c slice at middle coordinate n. Read at (p, 0, q) it is the array at (p, n, q); with its unit
  middle axis dropped it is an a×c matrix holding at (p, q) what the slab held at (p, 0, q), and the unit axis put back
  undoes that. A rectangle of the slab's extents placed at (0, n, 0) sends the slab's index (p, 0, q) to (p, n, q) of the
  array. Swapping the last two axes of an a×b×c array gives the a×c×b array holding at (p, q, r) the entry (p, r, q).
  An a×1 column with its unit axis dropped is the vector holding at p the column's entry (p, 0).
  Nothing here mentions a program.
-/
import Idealize.ShloMosaic.Lib.Pipeline.Value
import Idealize.ShloMosaic.Lib.ValueIdx

noncomputable section

namespace Cert.Lib.Slabs

open Idealize.ShloMosaic Idealize.ShloMosaic.ValueIdx

variable {α : Type} {a b c : Nat}

/-- Slab n of the middle axis read at (p, 0, q): the array at (p, n, q). -/
theorem slab_apply (x : (⟨3, ![a, b, c]⟩ : Shape).Idx → α) (n : Nat) (hn : n < b)
    (h : (⟨3, ![a, b, c]⟩ : Shape).Slices ![0, n, 0] ⟨3, ![a, 1, c]⟩) (p : Fin a) (q : Fin c) :
    extractStridedSlice ⟨3, ![a, 1, c]⟩ ![0, n, 0] x h (ix3 p (0 : Fin 1) q) = x (ix3 p ⟨n, hn⟩ q) :=
  extractStridedSlice_apply ![0, n, 0] x h (ix3 p (0 : Fin 1) q) (ix3 p ⟨n, hn⟩ q) fun ax => by
    match ax with
    | ⟨0, _⟩ => show p.val = 0 + p.val; omega
    | ⟨1, _⟩ => show n = n + 0; rfl
    | ⟨2, _⟩ => show q.val = 0 + q.val; omega

/-- An a×1×c slab with its unit axis dropped reads at (p, q) the slab's entry (p, 0, q). -/
theorem dropMid_apply (v : (⟨3, ![a, 1, c]⟩ : Shape).Idx → α)
    (h : (⟨3, ![a, 1, c]⟩ : Shape).ShapeCasts ⟨2, ![a, c]⟩) (p : Fin a) (q : Fin c) :
    shapeCast ⟨2, ![a, c]⟩ v h (ix2 p q) = v (ix3 p (0 : Fin 1) q) := by
  refine shapeCast_apply v h _ _ ?_
  rw [Shape.rowMajor_val_three, Shape.rowMajor_val_two]
  show (p.val * 1 + 0) * c + q.val = p.val * c + q.val
  rw [Nat.mul_one, Nat.add_zero]

/-- An a×c matrix given a unit middle axis reads at (p, 0, q) the matrix's entry (p, q). -/
theorem addMid_apply (v : (⟨2, ![a, c]⟩ : Shape).Idx → α)
    (h : (⟨2, ![a, c]⟩ : Shape).ShapeCasts ⟨3, ![a, 1, c]⟩) (p : Fin a) (q : Fin c) :
    shapeCast ⟨3, ![a, 1, c]⟩ v h (ix3 p (0 : Fin 1) q) = v (ix2 p q) := by
  refine shapeCast_apply v h _ _ ?_
  rw [Shape.rowMajor_val_three, Shape.rowMajor_val_two]
  show p.val * c + q.val = (p.val * 1 + 0) * c + q.val
  rw [Nat.mul_one, Nat.add_zero]

/-- An a×1 column with its unit axis dropped reads at p the column's entry (p, 0). -/
theorem dropCol_apply (v : (⟨2, ![a, 1]⟩ : Shape).Idx → α)
    (h : (⟨2, ![a, 1]⟩ : Shape).ShapeCasts ⟨1, ![a]⟩) (p : Fin a) :
    shapeCast ⟨1, ![a]⟩ v h (ix1 p) = v (ix2 p (0 : Fin 1)) := by
  refine shapeCast_apply v h _ _ ?_
  rw [Shape.rowMajor_val_one, Shape.rowMajor_val_two]
  show p.val * 1 + 0 = p.val
  omega

/-- The last two axes of an a×b×c array swapped: the result at (p, q, r) is the array at (p, r, q). -/
theorem swapLast_apply (x : (⟨3, ![a, b, c]⟩ : Shape).Idx → α)
    (h : (⟨3, ![a, b, c]⟩ : Shape).Transposes [0, 2, 1] ⟨3, ![a, c, b]⟩) (p : Fin a) (q : Fin c) (r : Fin b) :
    transpose ⟨3, ![a, c, b]⟩ [0, 2, 1] x h (ix3 p q r) = x (ix3 p r q) :=
  transpose_apply [0, 2, 1] x h (ix3 p q r) (ix3 p r q) fun ax => by
    match ax with
    | ⟨0, _⟩ => rfl
    | ⟨1, _⟩ => rfl
    | ⟨2, _⟩ => rfl

/-- The rectangle of slab n's extents at (0, n, 0) places the slab's index (p, 0, q) at (p, n, q) of the array. -/
theorem slabRect_emb (n : Nat) (hn : n < b)
    (inb : ∀ ax, (![0, n, 0] : Fin 3 → Nat) ax + (⟨3, ![a, 1, c]⟩ : Shape).size ax ≤ (⟨3, ![a, b, c]⟩ : Shape).size ax)
    (p : Fin a) (q : Fin c) :
    (Rect.unit (s := ⟨3, ![a, b, c]⟩) ![0, n, 0] (⟨3, ![a, 1, c]⟩ : Shape).size inb).emb (ix3 p (0 : Fin 1) q)
      = ix3 p ⟨n, hn⟩ q := by
  funext ax; apply Fin.ext
  match ax with
  | ⟨0, _⟩ => show 0 + 1 * p.val = p.val; omega
  | ⟨1, _⟩ => show n + 1 * 0 = n; omega
  | ⟨2, _⟩ => show 0 + 1 * q.val = q.val; omega

/-- Every index of an a×1×c slab has middle coordinate 0. -/
theorem eq_ix3_mid (y : (⟨3, ![a, 1, c]⟩ : Shape).Idx) : y = ix3 (y 0) (0 : Fin 1) (y 2) := by
  funext ax
  match ax with
  | ⟨0, _⟩ => rfl
  | ⟨1, h1⟩ =>
    apply Fin.ext
    have h : (y ⟨1, h1⟩).val < 1 := (y ⟨1, h1⟩).isLt
    show (y ⟨1, h1⟩).val = 0
    omega
  | ⟨2, _⟩ => rfl

end Cert.Lib.Slabs

end
-- ==== Proof.Motion.lean ====
/-
  The rigid motion of 64 clouds of 91 points as one whole-array function, in two layouts.

  Cloud j has its own rotation vector (row j of the 64×3 array r) and its own translation (row j of the 64×3 array t);
  point k of cloud j, the row (x₀[j,k,0], x₀[j,k,1], x₀[j,k,2]), is moved to p · R_j + t_j (Quaternion.lean's moved).
  In the natural layout the result holds coordinate n of that point at (j, k, n). In the points-last layout the
  coordinate axis comes before the point axis: the input holds coordinate m of point k at (j, m, k) and the result
  coordinate n at (j, n, k). The second is the first with the last two axes swapped on the way in and on the way out.
-/
import proofs.«117622_j20237885898851_2_alg».proof.Proof.Quaternion
import proofs.«117622_j20237885898851_2_alg».proof.Proof.LibSlabs
import Idealize.ShloMosaic.Lib.ValueIdx

noncomputable section

namespace Cert.Motion

open Idealize.ShloMosaic Idealize.ShloMosaic.ValueIdx Cert.Quaternion

/-- Natural layout: point k of cloud j along the last axis. -/
def movedPoints (x0 : (⟨3, ![64, 91, 3]⟩ : Shape).Idx → EReal) (r t : (⟨2, ![64, 3]⟩ : Shape).Idx → EReal) :
    (⟨3, ![64, 91, 3]⟩ : Shape).Idx → EReal := fun i =>
  moved (x0 (ix3 (i 0 : Fin 64) (i 1 : Fin 91) (0 : Fin 3))) (x0 (ix3 (i 0 : Fin 64) (i 1 : Fin 91) (1 : Fin 3)))
    (x0 (ix3 (i 0 : Fin 64) (i 1 : Fin 91) (2 : Fin 3)))
    (r (ix2 (i 0 : Fin 64) (0 : Fin 3))) (r (ix2 (i 0 : Fin 64) (1 : Fin 3))) (r (ix2 (i 0 : Fin 64) (2 : Fin 3)))
    (t (ix2 (i 0 : Fin 64) (i 2 : Fin 3))) (i 2 : Fin 3)

/-- Points-last layout: coordinate m of cloud j's points along the middle axis. -/
def movedLanes (y0 : (⟨3, ![64, 3, 91]⟩ : Shape).Idx → EReal) (r t : (⟨2, ![64, 3]⟩ : Shape).Idx → EReal) :
    (⟨3, ![64, 3, 91]⟩ : Shape).Idx → EReal := fun i =>
  moved (y0 (ix3 (i 0 : Fin 64) (0 : Fin 3) (i 2 : Fin 91))) (y0 (ix3 (i 0 : Fin 64) (1 : Fin 3) (i 2 : Fin 91)))
    (y0 (ix3 (i 0 : Fin 64) (2 : Fin 3) (i 2 : Fin 91)))
    (r (ix2 (i 0 : Fin 64) (0 : Fin 3))) (r (ix2 (i 0 : Fin 64) (1 : Fin 3))) (r (ix2 (i 0 : Fin 64) (2 : Fin 3)))
    (t (ix2 (i 0 : Fin 64) (i 1 : Fin 3))) (i 1 : Fin 3)

/-- Swapping the last two axes on the way in and on the way out turns the points-last motion into the natural one. -/
theorem swap_movedLanes (x0 : (⟨3, ![64, 91, 3]⟩ : Shape).Idx → EReal) (r t : (⟨2, ![64, 3]⟩ : Shape).Idx → EReal)
    (hin : (⟨3, ![64, 91, 3]⟩ : Shape).Transposes [0, 2, 1] ⟨3, ![64, 3, 91]⟩)
    (hout : (⟨3, ![64, 3, 91]⟩ : Shape).Transposes [0, 2, 1] ⟨3, ![64, 91, 3]⟩) :
    transpose ⟨3, ![64, 91, 3]⟩ [0, 2, 1] (movedLanes (transpose ⟨3, ![64, 3, 91]⟩ [0, 2, 1] x0 hin) r t) hout
      = movedPoints x0 r t := by
  funext i
  obtain ⟨p, q, s, rfl⟩ : ∃ (p : Fin 64) (q : Fin 91) (s : Fin 3), i = ix3 p q s := ⟨i 0, i 1, i 2, eq_ix3 i⟩
  rw [Cert.Lib.Slabs.swapLast_apply]
  show moved (transpose ⟨3, ![64, 3, 91]⟩ [0, 2, 1] x0 hin (ix3 p (0 : Fin 3) q))
      (transpose ⟨3, ![64, 3, 91]⟩ [0, 2, 1] x0 hin (ix3 p (1 : Fin 3) q))
      (transpose ⟨3, ![64, 3, 91]⟩ [0, 2, 1] x0 hin (ix3 p (2 : Fin 3) q))
      (r (ix2 p (0 : Fin 3))) (r (ix2 p (1 : Fin 3))) (r (ix2 p (2 : Fin 3))) (t (ix2 p s)) s
    = moved (x0 (ix3 p q (0 : Fin 3))) (x0 (ix3 p q (1 : Fin 3))) (x0 (ix3 p q (2 : Fin 3)))
      (r (ix2 p (0 : Fin 3))) (r (ix2 p (1 : Fin 3))) (r (ix2 p (2 : Fin 3))) (t (ix2 p s)) s
  rw [Cert.Lib.Slabs.swapLast_apply, Cert.Lib.Slabs.swapLast_apply, Cert.Lib.Slabs.swapLast_apply]

end Cert.Motion

end
-- ==== Proof.LibColumnBlocks.lean ====
/-
  Index lemmas for arrays handled column by column.

  `slice_col_apply`: column `c` of an R×C array, cut out as an R×1 slice, holds at row `r` the array's entry (r, c).
  `concat16_cols_apply`: sixteen R×1 columns laid side by side into an R×16 array hold at (r, q) column `q`'s entry
  at row `r`; `concat16_vals_apply` is the same with the columns named one by one.
-/
import Idealize.ShloMosaic.Lib.Pipeline.Value
import Idealize.ShloMosaic.Lib.ValueIdx

noncomputable section

namespace ColumnBlocks

open Idealize.ShloMosaic Idealize.ShloMosaic.ValueIdx

variable {α : Type}

/-- Column `c` of an R×C array as an R×1 slice, at row `r`: the array at (r, c). -/
theorem slice_col_apply {R C : Nat} (x : (⟨2, ![R, C]⟩ : Shape).Idx → α) (c : Nat) (hc : c < C)
    (h : (⟨2, ![R, C]⟩ : Shape).Slices ![0, c] ⟨2, ![R, 1]⟩) (r : Fin R) :
    extractStridedSlice ⟨2, ![R, 1]⟩ ![0, c] x h (ix2 r (0 : Fin 1)) = x (ix2 r ⟨c, hc⟩) :=
  extractStridedSlice_apply ![0, c] x h (ix2 r (0 : Fin 1)) (ix2 r ⟨c, hc⟩) fun a => by
    match a with
    | ⟨0, _⟩ => show r.val = 0 + r.val; omega
    | ⟨1, _⟩ => show c = c + 0; rfl

/-- Sixteen R×1 columns side by side, read at (r, q): column `q` at row `r`. -/
theorem concat16_cols_apply {R : Nat} (col : Fin 16 → ((⟨2, ![R, 1]⟩ : Shape).Idx → α))
    (h : Shape.Concatenates [(⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape)] ⟨2, ![R, 16]⟩ (1 : Fin 2))
    (r : Fin R) (q : Fin 16) :
    concatenate ⟨2, ![R, 16]⟩ (1 : Fin 2)
      [⟨(⟨2, ![R, 1]⟩ : Shape), col 0⟩, ⟨(⟨2, ![R, 1]⟩ : Shape), col 1⟩, ⟨(⟨2, ![R, 1]⟩ : Shape), col 2⟩, ⟨(⟨2, ![R, 1]⟩ : Shape), col 3⟩, ⟨(⟨2, ![R, 1]⟩ : Shape), col 4⟩, ⟨(⟨2, ![R, 1]⟩ : Shape), col 5⟩, ⟨(⟨2, ![R, 1]⟩ : Shape), col 6⟩, ⟨(⟨2, ![R, 1]⟩ : Shape), col 7⟩, ⟨(⟨2, ![R, 1]⟩ : Shape), col 8⟩, ⟨(⟨2, ![R, 1]⟩ : Shape), col 9⟩, ⟨(⟨2, ![R, 1]⟩ : Shape), col 10⟩, ⟨(⟨2, ![R, 1]⟩ : Shape), col 11⟩, ⟨(⟨2, ![R, 1]⟩ : Shape), col 12⟩, ⟨(⟨2, ![R, 1]⟩ : Shape), col 13⟩, ⟨(⟨2, ![R, 1]⟩ : Shape), col 14⟩, ⟨(⟨2, ![R, 1]⟩ : Shape), col 15⟩] h (ix2 r q)
      = col q (ix2 r (0 : Fin 1)) :=
  concatenate_ofFn_unit_apply (t := ⟨2, ![R, 16]⟩) (s₁ := ⟨2, ![R, 1]⟩) (1 : Fin 2) col h rfl rfl (ix2 r q) q rfl
    (ix2 r (0 : Fin 1)) fun b hb => by
      match b with
      | ⟨0, _⟩ => rfl
      | ⟨1, _⟩ => exact absurd rfl hb

/-- The same with the sixteen columns named one by one: the entry at (r, q) is the `q`-th of the sixteen values the
    columns hold at row `r`. -/
theorem concat16_vals_apply {R : Nat} (c0 c1 c2 c3 c4 c5 c6 c7 c8 c9 c10 c11 c12 c13 c14 c15 : (⟨2, ![R, 1]⟩ : Shape).Idx → α)
    (h : Shape.Concatenates [(⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape)] ⟨2, ![R, 16]⟩ (1 : Fin 2))
    (r : Fin R) (q : Fin 16) :
    concatenate ⟨2, ![R, 16]⟩ (1 : Fin 2)
      [⟨(⟨2, ![R, 1]⟩ : Shape), c0⟩, ⟨(⟨2, ![R, 1]⟩ : Shape), c1⟩, ⟨(⟨2, ![R, 1]⟩ : Shape), c2⟩, ⟨(⟨2, ![R, 1]⟩ : Shape), c3⟩, ⟨(⟨2, ![R, 1]⟩ : Shape), c4⟩, ⟨(⟨2, ![R, 1]⟩ : Shape), c5⟩, ⟨(⟨2, ![R, 1]⟩ : Shape), c6⟩, ⟨(⟨2, ![R, 1]⟩ : Shape), c7⟩, ⟨(⟨2, ![R, 1]⟩ : Shape), c8⟩, ⟨(⟨2, ![R, 1]⟩ : Shape), c9⟩, ⟨(⟨2, ![R, 1]⟩ : Shape), c10⟩, ⟨(⟨2, ![R, 1]⟩ : Shape), c11⟩, ⟨(⟨2, ![R, 1]⟩ : Shape), c12⟩, ⟨(⟨2, ![R, 1]⟩ : Shape), c13⟩, ⟨(⟨2, ![R, 1]⟩ : Shape), c14⟩, ⟨(⟨2, ![R, 1]⟩ : Shape), c15⟩] h (ix2 r q)
      = (![c0 (ix2 r (0 : Fin 1)), c1 (ix2 r (0 : Fin 1)), c2 (ix2 r (0 : Fin 1)), c3 (ix2 r (0 : Fin 1)), c4 (ix2 r (0 : Fin 1)), c5 (ix2 r (0 : Fin 1)), c6 (ix2 r (0 : Fin 1)), c7 (ix2 r (0 : Fin 1)), c8 (ix2 r (0 : Fin 1)), c9 (ix2 r (0 : Fin 1)), c10 (ix2 r (0 : Fin 1)), c11 (ix2 r (0 : Fin 1)), c12 (ix2 r (0 : Fin 1)), c13 (ix2 r (0 : Fin 1)), c14 (ix2 r (0 : Fin 1)), c15 (ix2 r (0 : Fin 1))] : Fin 16 → α) q := by
  refine (concat16_cols_apply ![c0, c1, c2, c3, c4, c5, c6, c7, c8, c9, c10, c11, c12, c13, c14, c15] h r q).trans ?_
  fin_cases q <;> rfl

end ColumnBlocks

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.KernelBlock.lean ====
/-
  What the kernel body leaves in its output block, as a whole-array function of its three input blocks.

  The body works in the points-last layout. It cuts the 64×3×91 input into its three coordinate slabs (each a 64×91
  matrix), reads the three columns of the rotation vectors and of the translations, forms per cloud the unit
  quaternion — the reciprocal of the length, and the vector part times that reciprocal — and the nine entries of
  its rotation matrix, and stores, slab by slab, p₀ · R₀ₙ + p₁ · R₁ₙ + p₂ · R₂ₙ + tₙ with the per-cloud numbers
  spread along the 91 points. Read at an index, every step is either pointwise or one of the re-layings of
  LibSlabs / LibColumnBlocks / LibRowReductions, so the block is Motion.lean's movedLanes of the three input blocks.
-/
import proofs.«117622_j20237885898851_2_alg».proof.Proof.Gen.KernelIdeal.Frame
import proofs.«117622_j20237885898851_2_alg».proof.Proof.Motion
import proofs.«117622_j20237885898851_2_alg».proof.Proof.LibSlabs
import proofs.«117622_j20237885898851_2_alg».proof.Proof.LibColumnBlocks
import proofs.«117622_j20237885898851_2_alg».proof.Proof.LibRowReductions
import Idealize.ShloMosaic.Lib.Pipeline.Value
import Idealize.ShloMosaic.Lib.ValueIdx

noncomputable section

namespace Cert.KernelIdeal.Block

open Idealize.ShloMosaic Idealize.ShloMosaic.TcCoe Idealize.ShloMosaic.ValueIdx
open Cert.KernelIdeal Cert.KernelIdeal.Gen
open Cert.Quaternion Cert.Motion Cert.Lib.Slabs Cert.Lib.RowReductions ColumnBlocks

/-! ## The slabs and columns the body cuts out -/

section Cuts
variable (x : Vec Ideal S64x3x91 .f32) (r t : Vec Ideal S64x3 .f32) (j : Fin 64) (q : Fin 91)

/-- The first coordinate slab as a 64×91 matrix. -/
theorem slab0 : k0_pay5 x (ix2 j q) = x (ix3 j (0 : Fin 3) q) := by
  unfold k0_pay5 k0_pay4
  rw [shapeCast_self, dropMid_apply, slab_apply _ 0 (by decide)]
  rfl

/-- The second. -/
theorem slab1 : k0_pay6 x (ix2 j q) = x (ix3 j (1 : Fin 3) q) := by
  unfold k0_pay6 k0_pay4
  rw [shapeCast_self, dropMid_apply, slab_apply _ 1 (by decide)]
  rfl

/-- The third. -/
theorem slab2 : k0_pay7 x (ix2 j q) = x (ix3 j (2 : Fin 3) q) := by
  unfold k0_pay7 k0_pay4
  rw [shapeCast_self, dropMid_apply, slab_apply _ 2 (by decide)]
  rfl

/-- The three columns of the rotation vectors, as vectors over the clouds. -/
theorem rcol0 : k0_pay8 r (ix1 j) = r (ix2 j (0 : Fin 3)) := by
  unfold k0_pay8
  rw [dropCol_apply, slice_col_apply _ 0 (by decide)]
  rfl
theorem rcol1 : k0_pay9 r (ix1 j) = r (ix2 j (1 : Fin 3)) := by
  unfold k0_pay9
  rw [dropCol_apply, slice_col_apply _ 1 (by decide)]
  rfl
theorem rcol2 : k0_pay10 r (ix1 j) = r (ix2 j (2 : Fin 3)) := by
  unfold k0_pay10
  rw [dropCol_apply, slice_col_apply _ 2 (by decide)]
  rfl

/-- The three columns of the translations, kept as 64×1 columns. -/
theorem tcol0 : k0_pay26 t (ix2 j (0 : Fin 1)) = t (ix2 j (0 : Fin 3)) := by
  unfold k0_pay26
  rw [slice_col_apply _ 0 (by decide)]
  rfl
theorem tcol1 : k0_pay27 t (ix2 j (0 : Fin 1)) = t (ix2 j (1 : Fin 3)) := by
  unfold k0_pay27
  rw [slice_col_apply _ 1 (by decide)]
  rfl
theorem tcol2 : k0_pay28 t (ix2 j (0 : Fin 1)) = t (ix2 j (2 : Fin 3)) := by
  unfold k0_pay28
  rw [slice_col_apply _ 2 (by decide)]
  rfl

end Cuts

/-! ## The per-cloud numbers: the nine entries of the rotation matrix -/

section Entries
variable (r : Vec Ideal S64x3 .f32) (j : Fin 64)

theorem entry00 : (k0_pay15 r) (ix1 j) = rotOf (r (ix2 j (0 : Fin 3))) (r (ix2 j (1 : Fin 3))) (r (ix2 j (2 : Fin 3))) 0 0 := by
  rw [← rcol0 r j, ← rcol1 r j, ← rcol2 r j]
  rfl

theorem entry01 : (k0_pay16 r) (ix1 j) = rotOf (r (ix2 j (0 : Fin 3))) (r (ix2 j (1 : Fin 3))) (r (ix2 j (2 : Fin 3))) 0 1 := by
  rw [← rcol0 r j, ← rcol1 r j, ← rcol2 r j]
  rfl

theorem entry02 : (k0_pay19 (k0_pay17 r) (k0_pay18 r)) (ix1 j) = rotOf (r (ix2 j (0 : Fin 3))) (r (ix2 j (1 : Fin 3))) (r (ix2 j (2 : Fin 3))) 0 2 := by
  rw [← rcol0 r j, ← rcol1 r j, ← rcol2 r j]
  rfl

theorem entry10 : (k0_pay20 (k0_pay11 r) (k0_pay12 r) (k0_pay13 r) (k0_pay14 r)) (ix1 j) = rotOf (r (ix2 j (0 : Fin 3))) (r (ix2 j (1 : Fin 3))) (r (ix2 j (2 : Fin 3))) 1 0 := by
  rw [← rcol0 r j, ← rcol1 r j, ← rcol2 r j]
  rfl

theorem entry11 : (k0_pay21 (k0_pay11 r) (k0_pay12 r) (k0_pay13 r) (k0_pay14 r)) (ix1 j) = rotOf (r (ix2 j (0 : Fin 3))) (r (ix2 j (1 : Fin 3))) (r (ix2 j (2 : Fin 3))) 1 1 := by
  rw [← rcol0 r j, ← rcol1 r j, ← rcol2 r j]
  rfl

theorem entry12 : (k0_pay22 (k0_pay11 r) (k0_pay12 r) (k0_pay13 r) (k0_pay14 r)) (ix1 j) = rotOf (r (ix2 j (0 : Fin 3))) (r (ix2 j (1 : Fin 3))) (r (ix2 j (2 : Fin 3))) 1 2 := by
  rw [← rcol0 r j, ← rcol1 r j, ← rcol2 r j]
  rfl

theorem entry20 : (k0_pay23 (k0_pay11 r) (k0_pay12 r) (k0_pay13 r) (k0_pay14 r)) (ix1 j) = rotOf (r (ix2 j (0 : Fin 3))) (r (ix2 j (1 : Fin 3))) (r (ix2 j (2 : Fin 3))) 2 0 := by
  rw [← rcol0 r j, ← rcol1 r j, ← rcol2 r j]
  rfl

theorem entry21 : (k0_pay24 (k0_pay11 r) (k0_pay12 r) (k0_pay13 r) (k0_pay14 r)) (ix1 j) = rotOf (r (ix2 j (0 : Fin 3))) (r (ix2 j (1 : Fin 3))) (r (ix2 j (2 : Fin 3))) 2 1 := by
  rw [← rcol0 r j, ← rcol1 r j, ← rcol2 r j]
  rfl

theorem entry22 : (k0_pay25 (k0_pay11 r) (k0_pay12 r) (k0_pay13 r) (k0_pay14 r)) (ix1 j) = rotOf (r (ix2 j (0 : Fin 3))) (r (ix2 j (1 : Fin 3))) (r (ix2 j (2 : Fin 3))) 2 2 := by
  rw [← rcol0 r j, ← rcol1 r j, ← rcol2 r j]
  rfl

end Entries

/-! ## The three stored rows -/

section Rows
variable (x : Vec Ideal S64x3x91 .f32) (r t : Vec Ideal S64x3 .f32) (j : Fin 64) (q : Fin 91)

/-- Row 0 of the block: the first coordinate of every moved point. -/
theorem row0 : k0_pay1 (k0_pay6 x) (k0_pay7 x) (k0_pay20 (k0_pay11 r) (k0_pay12 r) (k0_pay13 r) (k0_pay14 r)) (k0_pay23 (k0_pay11 r) (k0_pay12 r) (k0_pay13 r) (k0_pay14 r)) (k0_pay26 t)
      (k0_pay29 (k0_pay5 x) (k0_pay15 r)) (ix3 j (0 : Fin 1) q)
    = movedLanes x r t (ix3 j (0 : Fin 3) q) := by
  simp only [k0_pay1, k0_pay29, addMid_apply, addf_apply, mulf_apply, broadcast_col_apply, shapeCast_col_apply]
  rw [slab0, slab1, slab2, tcol0, entry00, entry10, entry20]
  rfl

/-- Row 1: the second coordinate. -/
theorem row1 : k0_pay2 (k0_pay5 x) (k0_pay6 x) (k0_pay7 x) (k0_pay16 r) (k0_pay21 (k0_pay11 r) (k0_pay12 r) (k0_pay13 r) (k0_pay14 r)) (k0_pay24 (k0_pay11 r) (k0_pay12 r) (k0_pay13 r) (k0_pay14 r))
      (k0_pay27 t) (ix3 j (0 : Fin 1) q)
    = movedLanes x r t (ix3 j (1 : Fin 3) q) := by
  simp only [k0_pay2, addMid_apply, addf_apply, mulf_apply, broadcast_col_apply, shapeCast_col_apply]
  rw [slab0, slab1, slab2, tcol1, entry01, entry11, entry21]
  rfl

/-- Row 2: the third coordinate. -/
theorem row2 : k0_pay3 (k0_pay5 x) (k0_pay6 x) (k0_pay7 x) (k0_pay19 (k0_pay17 r) (k0_pay18 r)) (k0_pay22 (k0_pay11 r) (k0_pay12 r) (k0_pay13 r) (k0_pay14 r))
      (k0_pay25 (k0_pay11 r) (k0_pay12 r) (k0_pay13 r) (k0_pay14 r)) (k0_pay28 t) (ix3 j (0 : Fin 1) q)
    = movedLanes x r t (ix3 j (2 : Fin 3) q) := by
  simp only [k0_pay3, addMid_apply, addf_apply, mulf_apply, broadcast_col_apply, shapeCast_col_apply]
  rw [slab0, slab1, slab2, tcol2, entry02, entry12, entry22]
  rfl

end Rows

/-! ## The block -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The three stores tile the output block slab by slab, and slab n holds coordinate n of every moved point: the
    block is the points-last motion of the three input blocks. -/
theorem block_eq (x0 : Vec Ideal S64x3x91 .f32) (x1 x2 : Vec Ideal S64x3 .f32) :
    out0_3 (F := Ideal) x0 x1 x2 = movedLanes x0 x1 x2 := by
  funext y
  unfold out0_3
  rw [View.ld_unit_zero (S := S64x3x91) zeros3, View.ld_unit_zero (S := S64x3) zeros2,
    View.ld_unit_zero (S := S64x3) zeros2]
  refine View.canon_apply_of_pieces (Val := Elt Ideal) (S := S64x3x91) (e := .f32) (movedLanes x0 x1 x2) _ ?_ y (cover0_3 _ _ _ y)
  intro pc hpc z
  simp only [List.mem_cons, List.mem_nil_iff, or_false] at hpc
  rcases hpc with rfl | rfl | rfl
  · obtain ⟨p, q, rfl⟩ : ∃ (p : Fin 64) (q : Fin 91), z = ix3 p (0 : Fin 1) q := ⟨z 0, z 2, eq_ix3_mid z⟩
    show _ = movedLanes x0 x1 x2 (r0_4.emb (ix3 p (0 : Fin 1) q))
    rw [slabRect_emb 2 (by decide)]
    exact row2 x0 x1 x2 p q
  · obtain ⟨p, q, rfl⟩ : ∃ (p : Fin 64) (q : Fin 91), z = ix3 p (0 : Fin 1) q := ⟨z 0, z 2, eq_ix3_mid z⟩
    show _ = movedLanes x0 x1 x2 (r0_3.emb (ix3 p (0 : Fin 1) q))
    rw [slabRect_emb 1 (by decide)]
    exact row1 x0 x1 x2 p q
  · obtain ⟨p, q, rfl⟩ : ∃ (p : Fin 64) (q : Fin 91), z = ix3 p (0 : Fin 1) q := ⟨z 0, z 2, eq_ix3_mid z⟩
    show _ = movedLanes x0 x1 x2 (r0_2.emb (ix3 p (0 : Fin 1) q))
    rw [slabRect_emb 0 (by decide)]
    exact row0 x0 x1 x2 p q

end Cert.KernelIdeal.Block

end
-- ==== Proof.KernelRun.lean ====
/-
  The kernel program's run, read: its result array ends at Motion.lean's movedPoints of the three arguments.

  The program swaps the last two axes of the points array, launches the body once on whole arrays — the grid has one
  point, every window's one block is its whole array at offset zero — and swaps the axes of the body's output back.
  So each input block IS its array, what the body leaves IS the output array (KernelBlock.lean: the points-last
  motion of the inputs), and the result is that with its last two axes swapped: the motion in the natural layout.
  The one write-back's block covers the whole output array, so the array ends holding what the body left.
-/
import proofs.«117622_j20237885898851_2_alg».proof.Proof.Gen.KernelIdeal.Frame
import proofs.«117622_j20237885898851_2_alg».proof.Proof.KernelBlock
import Idealize.ShloMosaic.Lib.Pipeline.Value
import Idealize.ShloMosaic.Lib.StableHlo.Run
import Idealize.ShloMosaic.Lib.Tactic

noncomputable section

namespace Cert.KernelIdeal.Whole

open Idealize.ShloMosaic Idealize.ShloMosaic.TcCoe Idealize.SL.Sem
open Idealize.ShloMosaic.Pipeline (Dat)
open Cert.KernelIdeal Cert.KernelIdeal.Gen Cert.Motion

variable (m : (ℓ : Loc nD τ sig) → Buf (Elt Ideal) ℓ) (ρ : Dev nD → PrngReg)

/-! ## The arrays the body is launched on -/

/-- The points array as the body finds it: the argument with its last two axes swapped. -/
theorem entry_points (c : Dev nD) :
    (V m c main_v0 : (⟨S64x3x91, .f32⟩ : BufTy).Contents (Elt Ideal))
      = transpose S64x3x91 [0, 2, 1] (m ((c : Thread nD τ).loc main_arg0)) transposes_S64x91x3_S64x3x91_0_2_1 := by
  show StableHlo.after hostOps0 (fun b => m (c, b)) (Proc.devRef .tc main_v0) = _
  after_results

/-- Every window's index map is constantly zero: its one block sits at offset zero. -/
theorem off0 (t : Fin cfg0.N) : (fun a => win0_0.index t a * main_v0.ty.shape.size a) = fun _ => 0 :=
  funext fun a => by match a with | ⟨0, _⟩ => rfl | ⟨1, _⟩ => rfl | ⟨2, _⟩ => rfl
theorem off1 (t : Fin cfg0.N) : (fun a => win0_1.index t a * main_arg1.ty.shape.size a) = fun _ => 0 :=
  funext fun a => by match a with | ⟨0, _⟩ => rfl | ⟨1, _⟩ => rfl
theorem off2 (t : Fin cfg0.N) : (fun a => win0_2.index t a * main_arg2.ty.shape.size a) = fun _ => 0 :=
  funext fun a => by match a with | ⟨0, _⟩ => rfl | ⟨1, _⟩ => rfl
theorem off3 (t : Fin cfg0.N) : (fun a => win0_3.index t a * main_v1.ty.shape.size a) = fun _ => 0 :=
  funext fun a => by match a with | ⟨0, _⟩ => rfl | ⟨1, _⟩ => rfl | ⟨2, _⟩ => rfl

/-- So each input block is its whole array. -/
theorem block0 (c : Dev nD) (t : Fin cfg0.N) : iblk m c 0 t = V m c main_v0 := by
  unfold iblk
  exact Memref.read_access_unit_zero (Elt Ideal) main_v0 (off0 t) (fun a => by rw [congrFun (off0 t) a]; simp) (V m c main_v0)
theorem block1 (c : Dev nD) (t : Fin cfg0.N) : iblk m c 1 t = m ((c : Thread nD τ).loc main_arg1) := by
  unfold iblk
  exact (Memref.read_access_unit_zero (Elt Ideal) main_arg1 (off1 t) (fun a => by rw [congrFun (off1 t) a]; simp) (V m c main_arg1)).trans
    (V_main_arg1 m c)
theorem block2 (c : Dev nD) (t : Fin cfg0.N) : iblk m c 2 t = m ((c : Thread nD τ).loc main_arg2) := by
  unfold iblk
  exact (Memref.read_access_unit_zero (Elt Ideal) main_arg2 (off2 t) (fun a => by rw [congrFun (off2 t) a]; simp) (V m c main_arg2)).trans
    (V_main_arg2 m c)

/-! ## The output array after the run -/

/-- The points-last motion of the launched arrays. -/
abbrev lanes (c : Dev nD) : Buf (Elt Ideal) ((c : Thread nD τ).loc main_v1) :=
  movedLanes (V m c main_v0) (m ((c : Thread nD τ).loc main_arg1)) (m ((c : Thread nD τ).loc main_arg2))

/-- The one write-back writes it. -/
theorem flushed_eq (c : Dev nD) (t : Fin cfg0.N) :
    (dats m 0 c).flushed 3 t = ((cfg0.win 3).blk t).view.read (Elt Ideal) (lanes m c) := by
  show (cfg0.win 3).cut (grid0.coords t) ((dats m 0 c).after 3 t) = _
  rw [after0_3, block0, block1, block2, Cert.KernelIdeal.Block.block_eq]
  exact (Memref.read_access_unit_zero (Elt Ideal) main_v1 (off3 t) (fun a => by rw [congrFun (off3 t) a]; simp) (lanes m c)).symm

/-- Its block covers the array, so the array ends holding it. -/
theorem final_lanes (c : Dev nD) : (dats m 0 c).arrAt 3 cfg0.N = lanes m c :=
  (dats m 0 c).arrAt_eq_of_cover 3 (lanes m c) (fun t _ => flushed_eq m c t) fun i =>
    ⟨t0_0, flush0_3 t0_0, by
      show i ∈ ((View.whole main_v1).slice (win0_3.rect t0_0)).set
      rw [View.set_slice_whole, Rect.mem_set_unit]
      intro a
      have h0 : (i 0 : Nat) < 64 := (i 0).isLt
      have h1 : (i 1 : Nat) < 3 := (i 1).isLt
      have h2 : (i 2 : Nat) < 91 := (i 2).isLt
      match a with
      | ⟨0, _⟩ =>
        show win0_3.index t0_0 0 * win0_3.size 0 ≤ (i 0 : Nat) ∧ (i 0 : Nat) < win0_3.index t0_0 0 * win0_3.size 0 + win0_3.xsize (grid0.coords t0_0) 0
        rw [show win0_3.index t0_0 0 * win0_3.size 0 = 0 from by decide +kernel, show win0_3.xsize (grid0.coords t0_0) 0 = 64 from by decide +kernel]; omega
      | ⟨1, _⟩ =>
        show win0_3.index t0_0 1 * win0_3.size 1 ≤ (i 1 : Nat) ∧ (i 1 : Nat) < win0_3.index t0_0 1 * win0_3.size 1 + win0_3.xsize (grid0.coords t0_0) 1
        rw [show win0_3.index t0_0 1 * win0_3.size 1 = 0 from by decide +kernel, show win0_3.xsize (grid0.coords t0_0) 1 = 3 from by decide +kernel]; omega
      | ⟨2, _⟩ =>
        show win0_3.index t0_0 2 * win0_3.size 2 ≤ (i 2 : Nat) ∧ (i 2 : Nat) < win0_3.index t0_0 2 * win0_3.size 2 + win0_3.xsize (grid0.coords t0_0) 2
        rw [show win0_3.index t0_0 2 * win0_3.size 2 = 0 from by decide +kernel, show win0_3.xsize (grid0.coords t0_0) 2 = 91 from by decide +kernel]; omega⟩

/-! ## The result -/

/-- The line after the region swaps the output's last two axes. -/
theorem tail_eq (c : Dev nD) :
    (Pipeline.afterTail₀ cfgs (dats m) 0 (V0 m) [hostOps1] c main_v2 : (⟨S64x91x3, .f32⟩ : BufTy).Contents (Elt Ideal))
      = transpose S64x91x3 [0, 2, 1] (lanes m c) transposes_S64x3x91_S64x91x3_0_2_1 := by
  unfold Pipeline.afterTail₀
  show StableHlo.after hostOps1 _ (Proc.devRef .tc main_v2) = _
  after_results
  rw [(Pipeline.withArrays_arr spec0 launch0.win.arr_inj c _ _ 3).trans (final_lanes m c)]

/-- Swapped in and swapped out: the motion in the natural layout. -/
theorem result_eq (c : Dev nD) :
    (Pipeline.afterTail₀ cfgs (dats m) 0 (V0 m) [hostOps1] c main_v2 : (⟨S64x91x3, .f32⟩ : BufTy).Contents (Elt Ideal))
      = movedPoints (m ((c : Thread nD τ).loc main_arg0)) (m ((c : Thread nD τ).loc main_arg1)) (m ((c : Thread nD τ).loc main_arg2)) := by
  rw [tail_eq]
  unfold lanes
  rw [entry_points]
  exact swap_movedLanes _ _ _ _ _

/-- The run, read: the result at the rigid motion of every point, the arguments unchanged. -/
theorem run : θ_run defs (onTc (τ := τ) (main (F := Ideal))) ⟨m, fun _ => 0, ρ⟩ fun r => ∀ c : Dev nD,
      r.2.mem ((c.tc : Thread nD τ).loc main_v2)
        = movedPoints (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Whole

end
-- ==== Proof.LibNineColumns.lean ====
/-
  A stack of 3×3 matrices built column by column.

  Nine R×1 columns laid side by side make an R×9 array holding at (r, q) column q's entry at row r; re-shaped to
  R×3×3 it holds at (r, m, n) the entry of column 3·m + n at row r — the row-major order of a 3×3 matrix.
  Nothing here mentions a program.
-/
import Idealize.ShloMosaic.Lib.Pipeline.Value
import Idealize.ShloMosaic.Lib.ValueIdx

noncomputable section

namespace Cert.Lib.NineColumns

open Idealize.ShloMosaic Idealize.ShloMosaic.ValueIdx

variable {α : Type}

/-- Nine R×1 columns side by side, read at (r, q): column q at row r. -/
theorem concat9_cols_apply {R : Nat} (col : Fin 9 → ((⟨2, ![R, 1]⟩ : Shape).Idx → α))
    (h : Shape.Concatenates [(⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape)] ⟨2, ![R, 9]⟩ (1 : Fin 2))
    (r : Fin R) (q : Fin 9) :
    concatenate ⟨2, ![R, 9]⟩ (1 : Fin 2)
      [⟨(⟨2, ![R, 1]⟩ : Shape), col 0⟩, ⟨(⟨2, ![R, 1]⟩ : Shape), col 1⟩, ⟨(⟨2, ![R, 1]⟩ : Shape), col 2⟩, ⟨(⟨2, ![R, 1]⟩ : Shape), col 3⟩, ⟨(⟨2, ![R, 1]⟩ : Shape), col 4⟩, ⟨(⟨2, ![R, 1]⟩ : Shape), col 5⟩, ⟨(⟨2, ![R, 1]⟩ : Shape), col 6⟩, ⟨(⟨2, ![R, 1]⟩ : Shape), col 7⟩, ⟨(⟨2, ![R, 1]⟩ : Shape), col 8⟩] h (ix2 r q)
      = col q (ix2 r (0 : Fin 1)) :=
  concatenate_ofFn_unit_apply (t := ⟨2, ![R, 9]⟩) (s₁ := ⟨2, ![R, 1]⟩) (1 : Fin 2) col h rfl rfl (ix2 r q) q rfl
    (ix2 r (0 : Fin 1)) fun b hb => by
      match b with
      | ⟨0, _⟩ => rfl
      | ⟨1, _⟩ => exact absurd rfl hb

/-- The same with the nine columns named one by one: the entry at (r, q) is the q-th of the nine values the columns
    hold at row r. -/
theorem concat9_vals_apply {R : Nat} (c0 c1 c2 c3 c4 c5 c6 c7 c8 : (⟨2, ![R, 1]⟩ : Shape).Idx → α)
    (h : Shape.Concatenates [(⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape)] ⟨2, ![R, 9]⟩ (1 : Fin 2))
    (r : Fin R) (q : Fin 9) :
    concatenate ⟨2, ![R, 9]⟩ (1 : Fin 2)
      [⟨(⟨2, ![R, 1]⟩ : Shape), c0⟩, ⟨(⟨2, ![R, 1]⟩ : Shape), c1⟩, ⟨(⟨2, ![R, 1]⟩ : Shape), c2⟩, ⟨(⟨2, ![R, 1]⟩ : Shape), c3⟩, ⟨(⟨2, ![R, 1]⟩ : Shape), c4⟩, ⟨(⟨2, ![R, 1]⟩ : Shape), c5⟩, ⟨(⟨2, ![R, 1]⟩ : Shape), c6⟩, ⟨(⟨2, ![R, 1]⟩ : Shape), c7⟩, ⟨(⟨2, ![R, 1]⟩ : Shape), c8⟩] h (ix2 r q)
      = (![c0 (ix2 r (0 : Fin 1)), c1 (ix2 r (0 : Fin 1)), c2 (ix2 r (0 : Fin 1)), c3 (ix2 r (0 : Fin 1)), c4 (ix2 r (0 : Fin 1)), c5 (ix2 r (0 : Fin 1)), c6 (ix2 r (0 : Fin 1)), c7 (ix2 r (0 : Fin 1)), c8 (ix2 r (0 : Fin 1))] : Fin 9 → α) q := by
  refine (concat9_cols_apply ![c0, c1, c2, c3, c4, c5, c6, c7, c8] h r q).trans ?_
  fin_cases q <;> rfl

/-- An R×9 array re-shaped to R×3×3 reads at (r, m, n) its entry (r, 3·m + n). -/
theorem reshape33_apply {R : Nat} (x : (⟨2, ![R, 9]⟩ : Shape).Idx → α)
    (h : (⟨2, ![R, 9]⟩ : Shape).ShapeCasts ⟨3, ![R, 3, 3]⟩) (r : Fin R) (m n : Fin 3) :
    shapeCast ⟨3, ![R, 3, 3]⟩ x h (ix3 r m n) = x (ix2 r ⟨3 * m.val + n.val, by omega⟩) := by
  refine shapeCast_apply x h _ _ ?_
  rw [Shape.rowMajor_val_two, Shape.rowMajor_val_three]
  show r.val * 9 + (3 * m.val + n.val) = (r.val * 3 + m.val) * 3 + n.val
  omega

end Cert.Lib.NineColumns

end
-- ==== Proof.Reference.lean ====
/-
  The reference computes Motion.lean's movedPoints.

  Per cloud j it lays 1 beside the rotation vector (b, c, d), squares the four numbers and adds them from 0, takes
  the square root, divides all four by it, and builds the nine entries of the rotation matrix of the quaternion it
  got; the nine columns are laid side by side and re-shaped into 64 matrices 3×3. The result is the contraction
  Σₘ x₀[j,k,m] · R[j,m,n] plus the translation t[j,n]. Read at an index stage by stage (the generated read-at-an-index
  lemmas), the only steps that are not a renaming are Quaternion.lean's two: the sum from 0 of the four squares is the
  squared length, and a component divided by the length is the component times the reciprocal of the length.
-/
import proofs.«117622_j20237885898851_2_alg».proof.Proof.Gen.ReferenceIdeal.Read
import proofs.«117622_j20237885898851_2_alg».proof.Proof.Motion
import proofs.«117622_j20237885898851_2_alg».proof.Proof.LibNineColumns
import Idealize.ShloMosaic.Lib.Pipeline.Value
import Idealize.ShloMosaic.Lib.ValueIdx

noncomputable section

namespace Cert.ReferenceIdeal.Stages

open Idealize.ShloMosaic Idealize.ShloMosaic.TcCoe Idealize.ShloMosaic.ValueIdx
open Cert.ReferenceIdeal Cert.ReferenceIdeal.Gen Cert.ReferenceIdeal.Read
open Cert.Quaternion Cert.Motion Cert.Lib.NineColumns

variable (x0 : (⟨S64x91x3, .f32⟩ : BufTy).Contents (Elt Ideal)) (x1 x2 : (⟨S64x3, .f32⟩ : BufTy).Contents (Elt Ideal))
variable (j : Fin 64)

/-! ## The quaternion (1, b, c, d) of cloud j -/

/-- Its scalar part is the word 1. -/
theorem quat_zero : val_main_v1 (F := Ideal) x1 (ix2 j (0 : Fin 4)) = Ideal.ofBits .f32 0x3F800000#32 := by
  unfold val_main_v1
  rw [concatenate_pair_apply_left (t := S64x4) (s₁ := S64x1) (s₂ := S64x3) (1 : Fin 2) _ _ _ (ix2 j (0 : Fin 4)) rfl
    (ix2 j (0 : Fin 1))
    (fun b => by match b with | ⟨0, _⟩ => rfl | ⟨1, _⟩ => rfl)]
  rw [val_main_v0_apply, val_main_cst_apply]
  rfl

/-- Its vector part is the rotation vector. -/
theorem quat_succ (k : Fin 3) :
    val_main_v1 (F := Ideal) x1 (ix2 j (⟨k.val + 1, by omega⟩ : Fin 4)) = x1 (ix2 j k) := by
  unfold val_main_v1
  exact concatenate_pair_apply_right (t := S64x4) (s₁ := S64x1) (s₂ := S64x3) (1 : Fin 2) _ _ _
    (ix2 j (⟨k.val + 1, by omega⟩ : Fin 4)) rfl rfl (ix2 j k)
    (fun b hb => by match b with | ⟨0, _⟩ => rfl | ⟨1, _⟩ => exact absurd rfl hb)
    (by show k.val + 1 = k.val + 1; rfl)

theorem quat_one : val_main_v1 (F := Ideal) x1 (ix2 j (1 : Fin 4)) = x1 (ix2 j (0 : Fin 3)) := quat_succ x1 j 0
theorem quat_two : val_main_v1 (F := Ideal) x1 (ix2 j (2 : Fin 4)) = x1 (ix2 j (1 : Fin 3)) := quat_succ x1 j 1
theorem quat_three : val_main_v1 (F := Ideal) x1 (ix2 j (3 : Fin 4)) = x1 (ix2 j (2 : Fin 3)) := quat_succ x1 j 2

/-- The four squares added from 0: the squared length. -/
theorem sq_len : val_main_v3 (F := Ideal) x1 (ix1 j)
    = sqLen (x1 (ix2 j (0 : Fin 3))) (x1 (ix2 j (1 : Fin 3))) (x1 (ix2 j (2 : Fin 3))) := by
  have e : ∀ k : Fin 4, idx_main_v3 (ix1 j) k = ix2 j k := fun k =>
    funext fun a => Fin.ext (by match a with | ⟨0, _⟩ => rfl | ⟨1, _⟩ => rfl)
  rw [val_main_v3_apply, Fin.sum_univ_four]
  simp only [e, val_main_v2_apply, val_main_cst_0_apply]
  rw [quat_zero x1 j, quat_one x1 j, quat_two x1 j, quat_three x1 j]
  exact sqLen_from_zero _ _ _

/-- Every component is divided by the length. -/
theorem unit_comp (k : Fin 4) : val_main_v7 (F := Ideal) x1 (ix2 j k)
    = Ideal.div (val_main_v1 (F := Ideal) x1 (ix2 j k))
        (len (x1 (ix2 j (0 : Fin 3))) (x1 (ix2 j (1 : Fin 3))) (x1 (ix2 j (2 : Fin 3)))) := by
  have e : idx_main_v4 (idx_main_v6 (ix2 j k)) = ix1 j :=
    funext fun a => Fin.ext (by match a with | ⟨0, _⟩ => rfl)
  rw [val_main_v7_apply, val_main_v6_apply, val_main_v5_apply, val_main_v4_apply, e, sq_len x1 j]
  rfl

/-! ## The unit quaternion of cloud j -/

/-- A component of the vector part divided by the length: the component times the reciprocal of the length. -/
theorem unit_vec (k : Fin 3) : val_main_v7 (F := Ideal) x1 (ix2 j (⟨k.val + 1, by omega⟩ : Fin 4))
    = x1 (ix2 j k) * scal (x1 (ix2 j (0 : Fin 3))) (x1 (ix2 j (1 : Fin 3))) (x1 (ix2 j (2 : Fin 3))) := by
  rw [unit_comp, quat_succ, div_len]

/-- The scalar part of the unit quaternion. -/
theorem unit_a : val_main_v9 (F := Ideal) x1 (ix1 j) = scal (x1 (ix2 j (0 : Fin 3))) (x1 (ix2 j (1 : Fin 3))) (x1 (ix2 j (2 : Fin 3))) := by
  have e : idx_main_v8 (idx_main_v9 (ix1 j)) = ix2 j (0 : Fin 4) :=
    funext fun a => Fin.ext (by match a with | ⟨0, _⟩ => exact Nat.div_one _ | ⟨1, _⟩ => rfl)
  rw [val_main_v9_apply, val_main_v8_apply, e, unit_comp, quat_zero]
  rfl

/-- Its vector part. -/
theorem unit_b : val_main_v11 (F := Ideal) x1 (ix1 j) = x1 (ix2 j (0 : Fin 3)) * scal (x1 (ix2 j (0 : Fin 3))) (x1 (ix2 j (1 : Fin 3))) (x1 (ix2 j (2 : Fin 3))) := by
  have e : idx_main_v10 (idx_main_v11 (ix1 j)) = ix2 j (⟨(0 : Fin 3).val + 1, by omega⟩ : Fin 4) :=
    funext fun a => Fin.ext (by match a with | ⟨0, _⟩ => exact Nat.div_one _ | ⟨1, _⟩ => rfl)
  rw [val_main_v11_apply, val_main_v10_apply, e]
  exact unit_vec x1 j 0
theorem unit_c : val_main_v13 (F := Ideal) x1 (ix1 j) = x1 (ix2 j (1 : Fin 3)) * scal (x1 (ix2 j (0 : Fin 3))) (x1 (ix2 j (1 : Fin 3))) (x1 (ix2 j (2 : Fin 3))) := by
  have e : idx_main_v12 (idx_main_v13 (ix1 j)) = ix2 j (⟨(1 : Fin 3).val + 1, by omega⟩ : Fin 4) :=
    funext fun a => Fin.ext (by match a with | ⟨0, _⟩ => exact Nat.div_one _ | ⟨1, _⟩ => rfl)
  rw [val_main_v13_apply, val_main_v12_apply, e]
  exact unit_vec x1 j 1
theorem unit_d : val_main_v15 (F := Ideal) x1 (ix1 j) = x1 (ix2 j (2 : Fin 3)) * scal (x1 (ix2 j (0 : Fin 3))) (x1 (ix2 j (1 : Fin 3))) (x1 (ix2 j (2 : Fin 3))) := by
  have e : idx_main_v14 (idx_main_v15 (ix1 j)) = ix2 j (⟨(2 : Fin 3).val + 1, by omega⟩ : Fin 4) :=
    funext fun a => Fin.ext (by match a with | ⟨0, _⟩ => exact Nat.div_one _ | ⟨1, _⟩ => rfl)
  rw [val_main_v15_apply, val_main_v14_apply, e]
  exact unit_vec x1 j 2

/-! ## The nine entries of its rotation matrix -/

theorem entry00 : val_main_v22 (F := Ideal) x1 (ix1 j) = rotOf (x1 (ix2 j (0 : Fin 3))) (x1 (ix2 j (1 : Fin 3))) (x1 (ix2 j (2 : Fin 3))) 0 0 := by
  simp only [val_main_v16_apply, val_main_v17_apply, val_main_v18_apply, val_main_v19_apply, val_main_v20_apply, val_main_v21_apply, val_main_v22_apply, val_main_v24_apply, val_main_v25_apply, val_main_v27_apply, val_main_v28_apply, val_main_v29_apply, val_main_v31_apply, val_main_v32_apply, val_main_v34_apply, val_main_v35_apply, val_main_v36_apply, val_main_v38_apply, val_main_v39_apply, val_main_v41_apply, val_main_v42_apply, val_main_v43_apply, val_main_v44_apply, val_main_v45_apply, val_main_v46_apply, val_main_v47_apply, val_main_v48_apply, val_main_v49_apply, val_main_v50_apply, val_main_v52_apply, val_main_v53_apply, val_main_v55_apply, val_main_v56_apply, val_main_v57_apply, val_main_v59_apply, val_main_v60_apply, val_main_v62_apply, val_main_v63_apply, val_main_v64_apply, val_main_v66_apply, val_main_v67_apply, val_main_v69_apply, val_main_v70_apply, val_main_v71_apply, val_main_v72_apply, val_main_v73_apply, val_main_v74_apply, val_main_v75_apply, val_main_v76_apply, val_main_v77_apply, val_main_v78_apply, val_main_v23_apply, val_main_v26_apply, val_main_v30_apply, val_main_v33_apply, val_main_v37_apply, val_main_v40_apply, val_main_v51_apply, val_main_v54_apply, val_main_v58_apply, val_main_v61_apply, val_main_v65_apply, val_main_v68_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply]
  rw [unit_a x1 j, unit_b x1 j, unit_c x1 j, unit_d x1 j]
  rfl

theorem entry01 : val_main_v29 (F := Ideal) x1 (ix1 j) = rotOf (x1 (ix2 j (0 : Fin 3))) (x1 (ix2 j (1 : Fin 3))) (x1 (ix2 j (2 : Fin 3))) 0 1 := by
  simp only [val_main_v16_apply, val_main_v17_apply, val_main_v18_apply, val_main_v19_apply, val_main_v20_apply, val_main_v21_apply, val_main_v22_apply, val_main_v24_apply, val_main_v25_apply, val_main_v27_apply, val_main_v28_apply, val_main_v29_apply, val_main_v31_apply, val_main_v32_apply, val_main_v34_apply, val_main_v35_apply, val_main_v36_apply, val_main_v38_apply, val_main_v39_apply, val_main_v41_apply, val_main_v42_apply, val_main_v43_apply, val_main_v44_apply, val_main_v45_apply, val_main_v46_apply, val_main_v47_apply, val_main_v48_apply, val_main_v49_apply, val_main_v50_apply, val_main_v52_apply, val_main_v53_apply, val_main_v55_apply, val_main_v56_apply, val_main_v57_apply, val_main_v59_apply, val_main_v60_apply, val_main_v62_apply, val_main_v63_apply, val_main_v64_apply, val_main_v66_apply, val_main_v67_apply, val_main_v69_apply, val_main_v70_apply, val_main_v71_apply, val_main_v72_apply, val_main_v73_apply, val_main_v74_apply, val_main_v75_apply, val_main_v76_apply, val_main_v77_apply, val_main_v78_apply, val_main_v23_apply, val_main_v26_apply, val_main_v30_apply, val_main_v33_apply, val_main_v37_apply, val_main_v40_apply, val_main_v51_apply, val_main_v54_apply, val_main_v58_apply, val_main_v61_apply, val_main_v65_apply, val_main_v68_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply]
  rw [unit_a x1 j, unit_b x1 j, unit_c x1 j, unit_d x1 j]
  rfl

theorem entry02 : val_main_v36 (F := Ideal) x1 (ix1 j) = rotOf (x1 (ix2 j (0 : Fin 3))) (x1 (ix2 j (1 : Fin 3))) (x1 (ix2 j (2 : Fin 3))) 0 2 := by
  simp only [val_main_v16_apply, val_main_v17_apply, val_main_v18_apply, val_main_v19_apply, val_main_v20_apply, val_main_v21_apply, val_main_v22_apply, val_main_v24_apply, val_main_v25_apply, val_main_v27_apply, val_main_v28_apply, val_main_v29_apply, val_main_v31_apply, val_main_v32_apply, val_main_v34_apply, val_main_v35_apply, val_main_v36_apply, val_main_v38_apply, val_main_v39_apply, val_main_v41_apply, val_main_v42_apply, val_main_v43_apply, val_main_v44_apply, val_main_v45_apply, val_main_v46_apply, val_main_v47_apply, val_main_v48_apply, val_main_v49_apply, val_main_v50_apply, val_main_v52_apply, val_main_v53_apply, val_main_v55_apply, val_main_v56_apply, val_main_v57_apply, val_main_v59_apply, val_main_v60_apply, val_main_v62_apply, val_main_v63_apply, val_main_v64_apply, val_main_v66_apply, val_main_v67_apply, val_main_v69_apply, val_main_v70_apply, val_main_v71_apply, val_main_v72_apply, val_main_v73_apply, val_main_v74_apply, val_main_v75_apply, val_main_v76_apply, val_main_v77_apply, val_main_v78_apply, val_main_v23_apply, val_main_v26_apply, val_main_v30_apply, val_main_v33_apply, val_main_v37_apply, val_main_v40_apply, val_main_v51_apply, val_main_v54_apply, val_main_v58_apply, val_main_v61_apply, val_main_v65_apply, val_main_v68_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply]
  rw [unit_a x1 j, unit_b x1 j, unit_c x1 j, unit_d x1 j]
  rfl

theorem entry10 : val_main_v43 (F := Ideal) x1 (ix1 j) = rotOf (x1 (ix2 j (0 : Fin 3))) (x1 (ix2 j (1 : Fin 3))) (x1 (ix2 j (2 : Fin 3))) 1 0 := by
  simp only [val_main_v16_apply, val_main_v17_apply, val_main_v18_apply, val_main_v19_apply, val_main_v20_apply, val_main_v21_apply, val_main_v22_apply, val_main_v24_apply, val_main_v25_apply, val_main_v27_apply, val_main_v28_apply, val_main_v29_apply, val_main_v31_apply, val_main_v32_apply, val_main_v34_apply, val_main_v35_apply, val_main_v36_apply, val_main_v38_apply, val_main_v39_apply, val_main_v41_apply, val_main_v42_apply, val_main_v43_apply, val_main_v44_apply, val_main_v45_apply, val_main_v46_apply, val_main_v47_apply, val_main_v48_apply, val_main_v49_apply, val_main_v50_apply, val_main_v52_apply, val_main_v53_apply, val_main_v55_apply, val_main_v56_apply, val_main_v57_apply, val_main_v59_apply, val_main_v60_apply, val_main_v62_apply, val_main_v63_apply, val_main_v64_apply, val_main_v66_apply, val_main_v67_apply, val_main_v69_apply, val_main_v70_apply, val_main_v71_apply, val_main_v72_apply, val_main_v73_apply, val_main_v74_apply, val_main_v75_apply, val_main_v76_apply, val_main_v77_apply, val_main_v78_apply, val_main_v23_apply, val_main_v26_apply, val_main_v30_apply, val_main_v33_apply, val_main_v37_apply, val_main_v40_apply, val_main_v51_apply, val_main_v54_apply, val_main_v58_apply, val_main_v61_apply, val_main_v65_apply, val_main_v68_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply]
  rw [unit_a x1 j, unit_b x1 j, unit_c x1 j, unit_d x1 j]
  rfl

theorem entry11 : val_main_v50 (F := Ideal) x1 (ix1 j) = rotOf (x1 (ix2 j (0 : Fin 3))) (x1 (ix2 j (1 : Fin 3))) (x1 (ix2 j (2 : Fin 3))) 1 1 := by
  simp only [val_main_v16_apply, val_main_v17_apply, val_main_v18_apply, val_main_v19_apply, val_main_v20_apply, val_main_v21_apply, val_main_v22_apply, val_main_v24_apply, val_main_v25_apply, val_main_v27_apply, val_main_v28_apply, val_main_v29_apply, val_main_v31_apply, val_main_v32_apply, val_main_v34_apply, val_main_v35_apply, val_main_v36_apply, val_main_v38_apply, val_main_v39_apply, val_main_v41_apply, val_main_v42_apply, val_main_v43_apply, val_main_v44_apply, val_main_v45_apply, val_main_v46_apply, val_main_v47_apply, val_main_v48_apply, val_main_v49_apply, val_main_v50_apply, val_main_v52_apply, val_main_v53_apply, val_main_v55_apply, val_main_v56_apply, val_main_v57_apply, val_main_v59_apply, val_main_v60_apply, val_main_v62_apply, val_main_v63_apply, val_main_v64_apply, val_main_v66_apply, val_main_v67_apply, val_main_v69_apply, val_main_v70_apply, val_main_v71_apply, val_main_v72_apply, val_main_v73_apply, val_main_v74_apply, val_main_v75_apply, val_main_v76_apply, val_main_v77_apply, val_main_v78_apply, val_main_v23_apply, val_main_v26_apply, val_main_v30_apply, val_main_v33_apply, val_main_v37_apply, val_main_v40_apply, val_main_v51_apply, val_main_v54_apply, val_main_v58_apply, val_main_v61_apply, val_main_v65_apply, val_main_v68_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply]
  rw [unit_a x1 j, unit_b x1 j, unit_c x1 j, unit_d x1 j]
  rfl

theorem entry12 : val_main_v57 (F := Ideal) x1 (ix1 j) = rotOf (x1 (ix2 j (0 : Fin 3))) (x1 (ix2 j (1 : Fin 3))) (x1 (ix2 j (2 : Fin 3))) 1 2 := by
  simp only [val_main_v16_apply, val_main_v17_apply, val_main_v18_apply, val_main_v19_apply, val_main_v20_apply, val_main_v21_apply, val_main_v22_apply, val_main_v24_apply, val_main_v25_apply, val_main_v27_apply, val_main_v28_apply, val_main_v29_apply, val_main_v31_apply, val_main_v32_apply, val_main_v34_apply, val_main_v35_apply, val_main_v36_apply, val_main_v38_apply, val_main_v39_apply, val_main_v41_apply, val_main_v42_apply, val_main_v43_apply, val_main_v44_apply, val_main_v45_apply, val_main_v46_apply, val_main_v47_apply, val_main_v48_apply, val_main_v49_apply, val_main_v50_apply, val_main_v52_apply, val_main_v53_apply, val_main_v55_apply, val_main_v56_apply, val_main_v57_apply, val_main_v59_apply, val_main_v60_apply, val_main_v62_apply, val_main_v63_apply, val_main_v64_apply, val_main_v66_apply, val_main_v67_apply, val_main_v69_apply, val_main_v70_apply, val_main_v71_apply, val_main_v72_apply, val_main_v73_apply, val_main_v74_apply, val_main_v75_apply, val_main_v76_apply, val_main_v77_apply, val_main_v78_apply, val_main_v23_apply, val_main_v26_apply, val_main_v30_apply, val_main_v33_apply, val_main_v37_apply, val_main_v40_apply, val_main_v51_apply, val_main_v54_apply, val_main_v58_apply, val_main_v61_apply, val_main_v65_apply, val_main_v68_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply]
  rw [unit_a x1 j, unit_b x1 j, unit_c x1 j, unit_d x1 j]
  rfl

theorem entry20 : val_main_v64 (F := Ideal) x1 (ix1 j) = rotOf (x1 (ix2 j (0 : Fin 3))) (x1 (ix2 j (1 : Fin 3))) (x1 (ix2 j (2 : Fin 3))) 2 0 := by
  simp only [val_main_v16_apply, val_main_v17_apply, val_main_v18_apply, val_main_v19_apply, val_main_v20_apply, val_main_v21_apply, val_main_v22_apply, val_main_v24_apply, val_main_v25_apply, val_main_v27_apply, val_main_v28_apply, val_main_v29_apply, val_main_v31_apply, val_main_v32_apply, val_main_v34_apply, val_main_v35_apply, val_main_v36_apply, val_main_v38_apply, val_main_v39_apply, val_main_v41_apply, val_main_v42_apply, val_main_v43_apply, val_main_v44_apply, val_main_v45_apply, val_main_v46_apply, val_main_v47_apply, val_main_v48_apply, val_main_v49_apply, val_main_v50_apply, val_main_v52_apply, val_main_v53_apply, val_main_v55_apply, val_main_v56_apply, val_main_v57_apply, val_main_v59_apply, val_main_v60_apply, val_main_v62_apply, val_main_v63_apply, val_main_v64_apply, val_main_v66_apply, val_main_v67_apply, val_main_v69_apply, val_main_v70_apply, val_main_v71_apply, val_main_v72_apply, val_main_v73_apply, val_main_v74_apply, val_main_v75_apply, val_main_v76_apply, val_main_v77_apply, val_main_v78_apply, val_main_v23_apply, val_main_v26_apply, val_main_v30_apply, val_main_v33_apply, val_main_v37_apply, val_main_v40_apply, val_main_v51_apply, val_main_v54_apply, val_main_v58_apply, val_main_v61_apply, val_main_v65_apply, val_main_v68_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply]
  rw [unit_a x1 j, unit_b x1 j, unit_c x1 j, unit_d x1 j]
  rfl

theorem entry21 : val_main_v71 (F := Ideal) x1 (ix1 j) = rotOf (x1 (ix2 j (0 : Fin 3))) (x1 (ix2 j (1 : Fin 3))) (x1 (ix2 j (2 : Fin 3))) 2 1 := by
  simp only [val_main_v16_apply, val_main_v17_apply, val_main_v18_apply, val_main_v19_apply, val_main_v20_apply, val_main_v21_apply, val_main_v22_apply, val_main_v24_apply, val_main_v25_apply, val_main_v27_apply, val_main_v28_apply, val_main_v29_apply, val_main_v31_apply, val_main_v32_apply, val_main_v34_apply, val_main_v35_apply, val_main_v36_apply, val_main_v38_apply, val_main_v39_apply, val_main_v41_apply, val_main_v42_apply, val_main_v43_apply, val_main_v44_apply, val_main_v45_apply, val_main_v46_apply, val_main_v47_apply, val_main_v48_apply, val_main_v49_apply, val_main_v50_apply, val_main_v52_apply, val_main_v53_apply, val_main_v55_apply, val_main_v56_apply, val_main_v57_apply, val_main_v59_apply, val_main_v60_apply, val_main_v62_apply, val_main_v63_apply, val_main_v64_apply, val_main_v66_apply, val_main_v67_apply, val_main_v69_apply, val_main_v70_apply, val_main_v71_apply, val_main_v72_apply, val_main_v73_apply, val_main_v74_apply, val_main_v75_apply, val_main_v76_apply, val_main_v77_apply, val_main_v78_apply, val_main_v23_apply, val_main_v26_apply, val_main_v30_apply, val_main_v33_apply, val_main_v37_apply, val_main_v40_apply, val_main_v51_apply, val_main_v54_apply, val_main_v58_apply, val_main_v61_apply, val_main_v65_apply, val_main_v68_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply]
  rw [unit_a x1 j, unit_b x1 j, unit_c x1 j, unit_d x1 j]
  rfl

theorem entry22 : val_main_v78 (F := Ideal) x1 (ix1 j) = rotOf (x1 (ix2 j (0 : Fin 3))) (x1 (ix2 j (1 : Fin 3))) (x1 (ix2 j (2 : Fin 3))) 2 2 := by
  simp only [val_main_v16_apply, val_main_v17_apply, val_main_v18_apply, val_main_v19_apply, val_main_v20_apply, val_main_v21_apply, val_main_v22_apply, val_main_v24_apply, val_main_v25_apply, val_main_v27_apply, val_main_v28_apply, val_main_v29_apply, val_main_v31_apply, val_main_v32_apply, val_main_v34_apply, val_main_v35_apply, val_main_v36_apply, val_main_v38_apply, val_main_v39_apply, val_main_v41_apply, val_main_v42_apply, val_main_v43_apply, val_main_v44_apply, val_main_v45_apply, val_main_v46_apply, val_main_v47_apply, val_main_v48_apply, val_main_v49_apply, val_main_v50_apply, val_main_v52_apply, val_main_v53_apply, val_main_v55_apply, val_main_v56_apply, val_main_v57_apply, val_main_v59_apply, val_main_v60_apply, val_main_v62_apply, val_main_v63_apply, val_main_v64_apply, val_main_v66_apply, val_main_v67_apply, val_main_v69_apply, val_main_v70_apply, val_main_v71_apply, val_main_v72_apply, val_main_v73_apply, val_main_v74_apply, val_main_v75_apply, val_main_v76_apply, val_main_v77_apply, val_main_v78_apply, val_main_v23_apply, val_main_v26_apply, val_main_v30_apply, val_main_v33_apply, val_main_v37_apply, val_main_v40_apply, val_main_v51_apply, val_main_v54_apply, val_main_v58_apply, val_main_v61_apply, val_main_v65_apply, val_main_v68_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply]
  rw [unit_a x1 j, unit_b x1 j, unit_c x1 j, unit_d x1 j]
  rfl

/-! ## The 64 matrices, stacked -/

theorem col00 : val_main_v79 (F := Ideal) x1 (ix2 j (0 : Fin 1)) = rotOf (x1 (ix2 j (0 : Fin 3))) (x1 (ix2 j (1 : Fin 3))) (x1 (ix2 j (2 : Fin 3))) 0 0 := by
  have e : idx_main_v79 (ix2 j (0 : Fin 1)) = ix1 j := funext fun a => Fin.ext (by match a with | ⟨0, _⟩ => rfl)
  rw [val_main_v79_apply, e]
  exact entry00 x1 j

theorem col01 : val_main_v80 (F := Ideal) x1 (ix2 j (0 : Fin 1)) = rotOf (x1 (ix2 j (0 : Fin 3))) (x1 (ix2 j (1 : Fin 3))) (x1 (ix2 j (2 : Fin 3))) 0 1 := by
  have e : idx_main_v80 (ix2 j (0 : Fin 1)) = ix1 j := funext fun a => Fin.ext (by match a with | ⟨0, _⟩ => rfl)
  rw [val_main_v80_apply, e]
  exact entry01 x1 j

theorem col02 : val_main_v81 (F := Ideal) x1 (ix2 j (0 : Fin 1)) = rotOf (x1 (ix2 j (0 : Fin 3))) (x1 (ix2 j (1 : Fin 3))) (x1 (ix2 j (2 : Fin 3))) 0 2 := by
  have e : idx_main_v81 (ix2 j (0 : Fin 1)) = ix1 j := funext fun a => Fin.ext (by match a with | ⟨0, _⟩ => rfl)
  rw [val_main_v81_apply, e]
  exact entry02 x1 j

theorem col10 : val_main_v82 (F := Ideal) x1 (ix2 j (0 : Fin 1)) = rotOf (x1 (ix2 j (0 : Fin 3))) (x1 (ix2 j (1 : Fin 3))) (x1 (ix2 j (2 : Fin 3))) 1 0 := by
  have e : idx_main_v82 (ix2 j (0 : Fin 1)) = ix1 j := funext fun a => Fin.ext (by match a with | ⟨0, _⟩ => rfl)
  rw [val_main_v82_apply, e]
  exact entry10 x1 j

theorem col11 : val_main_v83 (F := Ideal) x1 (ix2 j (0 : Fin 1)) = rotOf (x1 (ix2 j (0 : Fin 3))) (x1 (ix2 j (1 : Fin 3))) (x1 (ix2 j (2 : Fin 3))) 1 1 := by
  have e : idx_main_v83 (ix2 j (0 : Fin 1)) = ix1 j := funext fun a => Fin.ext (by match a with | ⟨0, _⟩ => rfl)
  rw [val_main_v83_apply, e]
  exact entry11 x1 j

theorem col12 : val_main_v84 (F := Ideal) x1 (ix2 j (0 : Fin 1)) = rotOf (x1 (ix2 j (0 : Fin 3))) (x1 (ix2 j (1 : Fin 3))) (x1 (ix2 j (2 : Fin 3))) 1 2 := by
  have e : idx_main_v84 (ix2 j (0 : Fin 1)) = ix1 j := funext fun a => Fin.ext (by match a with | ⟨0, _⟩ => rfl)
  rw [val_main_v84_apply, e]
  exact entry12 x1 j

theorem col20 : val_main_v85 (F := Ideal) x1 (ix2 j (0 : Fin 1)) = rotOf (x1 (ix2 j (0 : Fin 3))) (x1 (ix2 j (1 : Fin 3))) (x1 (ix2 j (2 : Fin 3))) 2 0 := by
  have e : idx_main_v85 (ix2 j (0 : Fin 1)) = ix1 j := funext fun a => Fin.ext (by match a with | ⟨0, _⟩ => rfl)
  rw [val_main_v85_apply, e]
  exact entry20 x1 j

theorem col21 : val_main_v86 (F := Ideal) x1 (ix2 j (0 : Fin 1)) = rotOf (x1 (ix2 j (0 : Fin 3))) (x1 (ix2 j (1 : Fin 3))) (x1 (ix2 j (2 : Fin 3))) 2 1 := by
  have e : idx_main_v86 (ix2 j (0 : Fin 1)) = ix1 j := funext fun a => Fin.ext (by match a with | ⟨0, _⟩ => rfl)
  rw [val_main_v86_apply, e]
  exact entry21 x1 j

theorem col22 : val_main_v87 (F := Ideal) x1 (ix2 j (0 : Fin 1)) = rotOf (x1 (ix2 j (0 : Fin 3))) (x1 (ix2 j (1 : Fin 3))) (x1 (ix2 j (2 : Fin 3))) 2 2 := by
  have e : idx_main_v87 (ix2 j (0 : Fin 1)) = ix1 j := funext fun a => Fin.ext (by match a with | ⟨0, _⟩ => rfl)
  rw [val_main_v87_apply, e]
  exact entry22 x1 j

/-- The nine columns side by side, re-shaped: matrix j at row m, column n. -/
theorem rot_entry (m n : Fin 3) : val_main_v89 (F := Ideal) x1 (ix3 j m n) = rotOf (x1 (ix2 j (0 : Fin 3))) (x1 (ix2 j (1 : Fin 3))) (x1 (ix2 j (2 : Fin 3))) m n := by
  unfold val_main_v89 val_main_v88
  rw [reshape33_apply, concat9_vals_apply, col00 x1 j, col01 x1 j, col02 x1 j, col10 x1 j, col11 x1 j, col12 x1 j,
    col20 x1 j, col21 x1 j, col22 x1 j]
  fin_cases m <;> fin_cases n <;> rfl

/-! ## The contraction and the translation -/

/-- The reference's result is the rigid motion of every point, in the natural layout. -/
theorem reference_eq : val_main_v93 (F := Ideal) x0 x1 x2 = movedPoints x0 x1 x2 := by
  funext i
  obtain ⟨p, q, s, rfl⟩ : ∃ (p : Fin 64) (q : Fin 91) (s : Fin 3), i = ix3 p q s := ⟨i 0, i 1, i 2, eq_ix3 i⟩
  have el : ∀ m : Fin 3, lidx_main_v90 (ix3 p q s) m = ix3 p q m := fun m =>
    funext fun a => Fin.ext (by match a with | ⟨0, _⟩ => rfl | ⟨1, _⟩ => rfl | ⟨2, _⟩ => rfl)
  have er : ∀ m : Fin 3, ridx_main_v90 (ix3 p q s) m = ix3 p m s := fun m =>
    funext fun a => Fin.ext (by match a with | ⟨0, _⟩ => rfl | ⟨1, _⟩ => rfl | ⟨2, _⟩ => rfl)
  have et : idx_main_v91 (idx_main_v92 (ix3 p q s)) = ix2 p s :=
    funext fun a => Fin.ext (by match a with | ⟨0, _⟩ => rfl | ⟨1, _⟩ => rfl)
  rw [val_main_v93_apply, val_main_v90_apply, Fin.sum_univ_three, val_main_v92_apply, val_main_v91_apply, et]
  simp only [el, er, rot_entry x1 p]
  rfl

end Cert.ReferenceIdeal.Stages

end
-- ==== Proof.lean ====
/-
  The kernel and its reference move 64 clouds of 91 points rigidly: cloud j is rotated by the unit quaternion
  (1, b, c, d) / √(1 + b² + c² + d²) of its rotation vector (b, c, d) and shifted by its translation.

  On the extended reals both programs end at ONE whole-array function of the arguments, Motion.lean's movedPoints:
  * the reference divides each quaternion component by the length, builds the nine matrix entries, stacks them into 64
    matrices 3×3 and contracts x₀[j,k,·] with R[j,·,n] (Reference.lean, over the generated run and its stage-by-stage
    read lemmas);
  * the kernel multiplies each component by the reciprocal of the length, works with the coordinate axis before the
    point axis, and writes the three coordinates of the moved points slab by slab (KernelBlock.lean); around it the
    last two axes are swapped in and out (KernelRun.lean, over the generated frame run).
  The two agree because the length is never zero — it is the root of 1 plus three squares, and squares are not negative
  even at ±∞ — and off zero dividing is multiplying by the inverse (Quaternion.lean). No entry needs to be finite.
  The three frames are the generated ones. Read on the extended reals the kernel keeps every one of its operations,
  so the claim that this reading preserves it has no conjunct and holds trivially.
-/
import proofs.«117622_j20237885898851_2_alg».proof.Defs
import proofs.«117622_j20237885898851_2_alg».proof.Proof.Gen.Kernel
import proofs.«117622_j20237885898851_2_alg».proof.Proof.Gen.Kernel.Skeleton
import proofs.«117622_j20237885898851_2_alg».proof.Proof.Gen.Kernel.Launch
import proofs.«117622_j20237885898851_2_alg».proof.Proof.Gen.Kernel.Points
import proofs.«117622_j20237885898851_2_alg».proof.Proof.Gen.Kernel.Frame
import proofs.«117622_j20237885898851_2_alg».proof.Proof.Gen.KernelIdeal
import proofs.«117622_j20237885898851_2_alg».proof.Proof.Gen.KernelIdeal.Skeleton
import proofs.«117622_j20237885898851_2_alg».proof.Proof.Gen.KernelIdeal.Launch
import proofs.«117622_j20237885898851_2_alg».proof.Proof.Gen.KernelIdeal.Points
import proofs.«117622_j20237885898851_2_alg».proof.Proof.Gen.KernelIdeal.Frame
import proofs.«117622_j20237885898851_2_alg».proof.Proof.Gen.ReferenceIdeal
import proofs.«117622_j20237885898851_2_alg».proof.Proof.Gen.ReferenceIdeal.Run
import proofs.«117622_j20237885898851_2_alg».proof.Proof.Gen.ReferenceIdeal.Read
import proofs.«117622_j20237885898851_2_alg».proof.Proof.Gen.Pre_finite_inputs
import proofs.«117622_j20237885898851_2_alg».proof.Proof.KernelRun
import proofs.«117622_j20237885898851_2_alg».proof.Proof.Reference
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the rigid motion of every point. -/
theorem algebraic : Cert.algebraic_KernelIdeal_ReferenceIdeal := by
  intro m ρ m' ρ' _ hagree
  refine ⟨fun c => Cert.Motion.movedPoints (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq, Cert.ReferenceIdeal.Stages.reference_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
